-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S4096x4096, .bf16⟩
  | .hbm, ⟨4, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.BlockSum.lean ====
/-
  A sum over a contracted axis of extent 4096 is the sum, over its 8 consecutive blocks of 512, of the
  blocks' sums.  This holds in any additive commutative monoid, hence on the extended reals with no
  finiteness assumption: only associativity and commutativity of addition are used.
-/
import Mathlib

open scoped BigOperators

namespace Cert.BlockSum

/-- Position `k * 512 + q` of the long axis, from the block number `k` and the position `q` inside the block. -/
def join (k : Fin 8) (q : Fin 512) : Fin 4096 := ⟨k.val * 512 + q.val, by omega⟩

@[simp] theorem join_val (k : Fin 8) (q : Fin 512) : (join k q).val = k.val * 512 + q.val := rfl

/-- The long sum, block by block: every position of the long axis is `join k q` for exactly one pair `(k, q)`. -/
theorem sum_blocks {M : Type*} [AddCommMonoid M] (f : Fin 4096 → M) :
    ∑ j : Fin 4096, f j = ∑ k : Fin 8, ∑ q : Fin 512, f (join k q) := by
  have e := Equiv.sum_comp (finProdFinEquiv : Fin 8 × Fin 512 ≃ Fin (8 * 512)) (fun j : Fin (8 * 512) => f j)
  rw [Fintype.sum_prod_type] at e
  refine e.symm.trans ?_
  refine Finset.sum_congr rfl fun k _ => Finset.sum_congr rfl fun q _ => congrArg f (Fin.ext ?_)
  show q.val + 512 * k.val = k.val * 512 + q.val
  omega

/-- The same with the blocks numbered by the naturals below 8, as a running total over the blocks produces them:
    if `g s` is block `s`'s sum for every `s < 8`, the total of `g` over `0 … 7` is the long sum. -/
theorem sum_range_blocks {M : Type*} [AddCommMonoid M] (f : Fin 4096 → M) (g : ℕ → M)
    (hg : ∀ k : Fin 8, g k.val = ∑ q : Fin 512, f (join k q)) :
    ∑ s ∈ Finset.range 8, g s = ∑ j : Fin 4096, f j := by
  rw [Finset.sum_range, sum_blocks]
  exact Finset.sum_congr rfl fun k _ => hg k

end Cert.BlockSum
-- ==== Proof.Spec.lean ====
/-
  The specification.  For `X` of shape [8192, 4096] and `W` of shape [4096, 4096] over the extended reals, the
  result at `(r, c)` is `+1` when the dot product of row `r` of `X` with column `c` of `W` is positive and `-1`
  otherwise.

  The kernel computes that dot product in 8 steps along the contracted axis, 512 positions per step, for an output
  tile of 2048 rows by 1024 columns; the grid's 128 points are numbered so that point `n` handles row tile
  `n / 32`, column tile `n / 8 % 4` and step `n % 8`.  `addend` is what point `n` adds at position `(a, b)` of its
  tile, and `sum_addends` says that the eight addends of one tile's run make up the whole dot product: a regrouping
  of one finite sum, valid on the extended reals without any finiteness assumption.
-/
import Idealize.ShloMosaic.PureOps.Ideal
import Idealize.ShloMosaic.PureOps.Ideal.Laws
import Idealize.ShloMosaic.Lib.ValueIdx
import proofs.«161810_j20787641712654_2_alg».proof.Proof.BlockSum

noncomputable section

open scoped BigOperators

namespace Cert.Spec

open Idealize.ShloMosaic Idealize.ShloMosaic.ValueIdx

/-- The shape of `X` and of the result. -/
abbrev SX : Shape := ⟨2, ![8192, 4096]⟩
/-- The shape of `W`. -/
abbrev SW : Shape := ⟨2, ![4096, 4096]⟩
/-- The shape of one output tile. -/
abbrev ST : Shape := ⟨2, ![2048, 1024]⟩

/-- Row `r` of `X` times column `c` of `W`. -/
def dot (X : SX.Idx → EReal) (W : SW.Idx → EReal) (r : Fin 8192) (c : Fin 4096) : EReal :=
  ∑ k : Fin 4096, X (ix2 r k) * W (ix2 k c)

/-- `+1` where `v > 0`, else `-1`, with the three constants as the f32 words both programs print. -/
def binarise (v : EReal) : EReal :=
  Scalar.select (FloatOps.cmpf (F := Ideal) (φ := .f32) .ogt v (Ideal.ofBits .f32 0x00000000#32))
    (Ideal.ofBits .f32 0x3F800000#32) (Ideal.ofBits .f32 0xBF800000#32)

/-- The result array as one function of the two argument arrays. -/
def G (X : SX.Idx → EReal) (W : SW.Idx → EReal) : SX.Idx → EReal :=
  fun i => binarise (dot X W (i 0) (i 1))

theorem G_ix2 (X : SX.Idx → EReal) (W : SW.Idx → EReal) (r : Fin 8192) (c : Fin 4096) :
    G X W (ix2 r c) = binarise (dot X W r c) := rfl

/-! ## The grid's numbering -/

/-- The row of `X` that position `a` of point `n`'s tile stands for. -/
def rowOf (n : ℕ) (a : Fin 2048) : Fin 8192 := ⟨n / 32 % 4 * 2048 + a.val, by omega⟩
/-- The column of `W` that position `b` of point `n`'s tile stands for. -/
def colOf (n : ℕ) (b : Fin 1024) : Fin 4096 := ⟨n / 8 % 4 * 1024 + b.val, by omega⟩
/-- The position on the contracted axis that position `q` of point `n`'s step stands for. -/
def posOf (n : ℕ) (q : Fin 512) : Fin 4096 := ⟨n % 8 * 512 + q.val, by omega⟩

/-- What point `n` adds at position `(a, b)` of its tile: its 512 products. -/
def addend (X : SX.Idx → EReal) (W : SW.Idx → EReal) (n : ℕ) (a : Fin 2048) (b : Fin 1024) : EReal :=
  ∑ q : Fin 512, X (ix2 (rowOf n a) (posOf n q)) * W (ix2 (posOf n q) (colOf n b))

/-- The eight addends of the run that starts at point `8 * p` make up the dot product of the tile's row and column. -/
theorem sum_addends (X : SX.Idx → EReal) (W : SW.Idx → EReal) (p : ℕ) (a : Fin 2048) (b : Fin 1024) :
    ∑ s ∈ Finset.range 8, addend X W (8 * p + s) a b = dot X W (rowOf (8 * p) a) (colOf (8 * p) b) := by
  unfold dot
  refine Cert.BlockSum.sum_range_blocks
    (fun k => X (ix2 (rowOf (8 * p) a) k) * W (ix2 k (colOf (8 * p) b))) _ (fun k => ?_)
  unfold addend
  refine Finset.sum_congr rfl fun q _ => ?_
  have hk := k.isLt
  have hr : rowOf (8 * p + k.val) a = rowOf (8 * p) a := Fin.ext (by
    show (8 * p + k.val) / 32 % 4 * 2048 + a.val = 8 * p / 32 % 4 * 2048 + a.val; omega)
  have hc : colOf (8 * p + k.val) b = colOf (8 * p) b := Fin.ext (by
    show (8 * p + k.val) / 8 % 4 * 1024 + b.val = 8 * p / 8 % 4 * 1024 + b.val; omega)
  have hq : posOf (8 * p + k.val) q = Cert.BlockSum.join k q := Fin.ext (by
    show (8 * p + k.val) % 8 * 512 + q.val = k.val * 512 + q.val; omega)
  rw [hr, hc, hq]

end Cert.Spec

end
-- ==== Proof.RefIsSpec.lean ====
/-
  The reference computes the specification.

  Read one operation at a time, the reference's result at `(r, c)` is a select between the constants `1` and `-1` on
  the comparison of a `dot_general` entry with the constant `0`; over the extended reals that entry is the sum over
  the contracted axis of `X (r, k) * W (k, c)`.  That is `G` word for word, once the operand positions are written
  with the same index constructor.
-/
import proofs.«161810_j20787641712654_2_alg».proof.Proof.Gen.ReferenceIdeal.Read
import proofs.«161810_j20787641712654_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The left operand of the product is read at `(r, k)`. -/
theorem left_pos (i : S8192x4096.Idx) (k : Fin 4096) :
    lidx_main_v0 i k = ix2 (n0 := 8192) (n1 := 4096) (i 0) k :=
  funext fun a => Fin.ext (by match a with | ⟨0, _⟩ => rfl | ⟨1, _⟩ => rfl)

/-- The right operand is read at `(k, c)`. -/
theorem right_pos (i : S8192x4096.Idx) (k : Fin 4096) :
    ridx_main_v0 i k = ix2 (n0 := 4096) (n1 := 4096) k (i 1) :=
  funext fun a => Fin.ext (by match a with | ⟨0, _⟩ => rfl | ⟨1, _⟩ => rfl)

/-- The reference's last stage is the specification of its two arguments. -/
theorem reference_eq (X : (⟨S8192x4096, .f32⟩ : BufTy).Contents (Elt Ideal))
    (W : (⟨S4096x4096, .f32⟩ : BufTy).Contents (Elt Ideal)) :
    val_main_v4 (F := Ideal) X W = Cert.Spec.G X W := by
  funext i
  rw [val_main_v4_apply, val_main_v3_apply, val_main_v2_apply, val_main_v0_apply, val_main_v1_apply,
    val_main_cst_apply, val_main_call0_v0_apply, val_main_cst_0_apply, val_main_call0_v1_apply, val_main_cst_1_apply]
  simp only [left_pos, right_pos]
  rfl

end Cert.ReferenceIdeal.RefValue

end
-- ==== Proof.Pieces.lean ====
/-
  What each control case of the kernel body leaves behind, as the body's own arithmetic.

  The body keeps a running total in a scratch tile that survives from one grid point to the next.  At the first
  step of a tile's run it fills the scratch with zeros and then adds the step's matrix product; at a later step it
  adds the step's product to what the step before left; at the last step it also writes the binarised total to the
  output tile.  Every store and load goes through the whole tile, so what a case leaves in a buffer is simply the
  value of its last store, with each load replaced by the contents it reads.

  The statements hold for any float instance: nothing here looks inside the arithmetic.
-/
import proofs.«161810_j20787641712654_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offsets of a whole-tile access are zero on both axes. -/
theorem offsets_zero : (![0, 0] : Fin 2 → Nat) = fun _ => 0 := funext fun a => by fin_cases a <;> rfl

/-- First step of a run: the scratch ends at zero plus the step's product (the zero fill is read back, then the
    product is added and stored over it). -/
theorem scratch_first (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : cond0_0 i) (hc1 : ¬cond0_1 i)
    (x0 : Vec F S2048x512 .bf16) (x1 : Vec F S512x1024 .bf16) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero offsets_zero, View.readCov_unit_zero _ offsets_zero]
  simp only [View.readAt_eq_ld, harg3.read_unread, harg4.read_unread,
    View.ld_unit_zero (S := S2048x512) offsets_zero, View.ld_unit_zero (S := S512x1024) offsets_zero]

/-- A middle step: the scratch ends at what the step before left plus the step's product. -/
theorem scratch_middle (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : ¬cond0_1 i)
    (x0 : Vec F S2048x512 .bf16) (x1 : Vec F S512x1024 .bf16) (xs0 : Vec F S2048x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero offsets_zero]
  simp only [View.readAt_eq_ld, harg6.read_unread, harg3.read_unread, harg4.read_unread,
    View.ld_unit_zero (S := S2048x1024) offsets_zero, View.ld_unit_zero (S := S2048x512) offsets_zero,
    View.ld_unit_zero (S := S512x1024) offsets_zero]

/-- The last step: the scratch again ends at what the step before left plus the step's product … -/
theorem scratch_last (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .bf16) (x1 : Vec F S512x1024 .bf16) (xs0 : Vec F S2048x1024 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero offsets_zero]
  simp only [View.readAt_eq_ld, harg6.read_unread, harg3.read_unread, harg4.read_unread,
    View.ld_unit_zero (S := S2048x1024) offsets_zero, View.ld_unit_zero (S := S2048x512) offsets_zero,
    View.ld_unit_zero (S := S512x1024) offsets_zero]

/-- … and the output tile ends at the binarisation of that total, which the body reads back from the scratch. -/
theorem output_last (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .bf16) (x1 : Vec F S512x1024 .bf16) (xs0 : Vec F S2048x1024 .f32) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero offsets_zero, View.readCov_unit_zero _ offsets_zero]
  simp only [View.readAt_eq_ld, harg6.read_unread, harg3.read_unread, harg4.read_unread,
    View.ld_unit_zero (S := S2048x1024) offsets_zero, View.ld_unit_zero (S := S2048x512) offsets_zero,
    View.ld_unit_zero (S := S512x1024) offsets_zero]

end Cert.KernelIdeal.Pieces

end
-- ==== Proof.Payload.lean ====
/-
  The body's arithmetic read at one position of the tile, over the extended reals.

  `zero_apply`: the zero fill is `0` everywhere.  `step_apply`: one step's value at position `(a, b)` is what the
  scratch held there plus the 512 products of row `a` of the step's block of `X` with column `b` of its block of
  `W` — the matrix unit's product into a zero accumulator is that plain sum, with no rounding and no order left in
  it.  `binarise_apply`: the epilogue compares with zero and selects `+1` or `-1`, position by position.
-/
import proofs.«161810_j20787641712654_2_alg».proof.Proof.Gen.KernelIdeal.Skeleton
import proofs.«161810_j20787641712654_2_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The zero fill at any position. -/
theorem zero_apply (y : S2048x1024.Idx) : k0_pay1 (F := Ideal) y = 0 := by
  unfold k0_pay1
  simp only [shapeCast_self]
  show Ideal.ofBits .f32 0x00000000#32 = 0
  exact Ideal.ofBits_zero_f32

/-! The operand positions of the step's product: at output position `(a, b)` and contraction position `k` the left
operand is read at `(a, k)` and the right at `(k, b)`. -/

theorem lhs_row (j : S2048x1024.Idx) (q : dot_S2048x512_S512x1024_S2048x1024_1_0_0_1_n_n.contr.Idx) :
    (dot_S2048x512_S512x1024_S2048x1024_1_0_0_1_n_n.lhsIdx j q 0).val = (j 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem lhs_pos (j : S2048x1024.Idx) (q : dot_S2048x512_S512x1024_S2048x1024_1_0_0_1_n_n.contr.Idx) :
    (dot_S2048x512_S512x1024_S2048x1024_1_0_0_1_n_n.lhsIdx j q 1).val = (q ⟨0, by decide⟩).val :=
  dot_S2048x512_S512x1024_S2048x1024_1_0_0_1_n_n.lhsIdx_val_of_single rfl j q
theorem rhs_pos (j : S2048x1024.Idx) (q : dot_S2048x512_S512x1024_S2048x1024_1_0_0_1_n_n.contr.Idx) :
    (dot_S2048x512_S512x1024_S2048x1024_1_0_0_1_n_n.rhsIdx j q 0).val = (q ⟨0, by decide⟩).val :=
  dot_S2048x512_S512x1024_S2048x1024_1_0_0_1_n_n.rhsIdx_val_of_single rfl j q
theorem rhs_col (j : S2048x1024.Idx) (q : dot_S2048x512_S512x1024_S2048x1024_1_0_0_1_n_n.contr.Idx) :
    (dot_S2048x512_S512x1024_S2048x1024_1_0_0_1_n_n.rhsIdx j q 1).val = (j 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The step's product into a zero accumulator, at position `(a, b)`: the sum of the 512 products. -/
theorem product_apply (x : FVec Ideal S2048x512 .bf16) (w : FVec Ideal S512x1024 .bf16) (a : Fin 2048) (b : Fin 1024) :
    matmul dot_S2048x512_S512x1024_S2048x1024_1_0_0_1_n_n none x w (constant S2048x1024 .f32 0x00000000#32) (ix2 a b)
      = ∑ q : Fin 512, x (ix2 a q) * w (ix2 q b) := by
  simp only [matmul]
  rw [Ideal.matmul_constant_zero_apply, ← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 a b) ((contrEquiv1 dot_S2048x512_S512x1024_S2048x1024_1_0_0_1_n_n 512 rfl rfl).symm k) = ix2 a k := funext fun d => Fin.ext (by
    match d with
    | ⟨0, _⟩ => exact lhs_row _ _
    | ⟨1, _⟩ => exact (lhs_pos _ _).trans hk)
  have er : dot_S2048x512_S512x1024_S2048x1024_1_0_0_1_n_n.rhsIdx (ix2 a b) ((contrEquiv1 dot_S2048x512_S512x1024_S2048x1024_1_0_0_1_n_n 512 rfl rfl).symm k) = ix2 k b := funext fun d => Fin.ext (by
    match d with
    | ⟨0, _⟩ => exact (rhs_pos _ _).trans hk
    | ⟨1, _⟩ => exact rhs_col _ _)
  rw [el, er]

/-- One step at position `(a, b)`: what the scratch held plus the step's 512 products. -/
theorem step_apply (acc : Vec Ideal S2048x1024 .f32) (x : Vec Ideal S2048x512 .bf16) (w : Vec Ideal S512x1024 .bf16)
    (a : Fin 2048) (b : Fin 1024) :
    k0_pay2 (F := Ideal) acc x w (ix2 a b) = acc (ix2 a b) + ∑ q : Fin 512, x (ix2 a q) * w (ix2 q b) := by
  unfold k0_pay2
  simp only [shapeCast_self]
  exact congrArg (acc (ix2 a b) + ·) (product_apply x w a b)

/-- The epilogue at any position: the binarisation of the total there. -/
theorem binarise_apply (v : Vec Ideal S2048x1024 .f32) (y : S2048x1024.Idx) :
    k0_pay3 (F := Ideal) v y = Cert.Spec.binarise (v y) := rfl

end Cert.KernelIdeal.Payload

end
-- ==== Proof.Blocks.lean ====
/-
  Where the blocks sit in the argument arrays.

  Before the kernel runs, the host casts both arguments to bf16; over the extended reals a change of float format is
  the identity, so the arrays the kernel's windows stage are the arguments themselves.  Grid point `t` works on row
  tile `t / 32 % 4`, column tile `t / 8 % 4` and contraction step `t % 8`: its block of `X` is rows
  `2048 * (t / 32 % 4) …` by positions `512 * (t % 8) …`, its block of `W` is positions `512 * (t % 8) …` by columns
  `1024 * (t / 8 % 4) …`, and its output tile is those rows by those columns.  Hence the 512 products a step adds
  at position `(a, b)` of its tile are the specification's `addend` at that point.
-/
import proofs.«161810_j20787641712654_2_alg».proof.Proof.Gen.KernelIdeal.Frame
import proofs.«161810_j20787641712654_2_alg».proof.Proof.Spec
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Cert.Spec (rowOf colOf posOf addend)

variable (m : (ℓ : Loc nD τ sig) → Buf (Elt Ideal) ℓ)

/-- The windows' block indices at every grid point, decided once over the 128 points. -/
theorem index_facts : ∀ t : Fin cfg0.N,
    win0_0.index t (0 : Fin 2) = t.val / 32 % 4 ∧ win0_0.index t (1 : Fin 2) = t.val % 8
    ∧ win0_1.index t (0 : Fin 2) = t.val % 8 ∧ win0_1.index t (1 : Fin 2) = t.val / 8 % 4
    ∧ win0_2.index t (0 : Fin 2) = t.val / 32 % 4 ∧ win0_2.index t (1 : Fin 2) = t.val / 8 % 4 :=
  (by decide +kernel : ∀ t : Fin grid0.N,
    win0_0.index t (0 : Fin 2) = t.val / 32 % 4 ∧ win0_0.index t (1 : Fin 2) = t.val % 8
    ∧ win0_1.index t (0 : Fin 2) = t.val % 8 ∧ win0_1.index t (1 : Fin 2) = t.val / 8 % 4
    ∧ win0_2.index t (0 : Fin 2) = t.val / 32 % 4 ∧ win0_2.index t (1 : Fin 2) = t.val / 8 % 4)

/-- The first window's array, as the kernel finds it, is the first argument: the cast to bf16 changes nothing. -/
theorem staged_x (c : Dev nD) :
    (V m c main_v0 : S8192x4096.Idx → EReal) = m ((c : Thread nD τ).loc main_arg0) := by
  dsimp only [V, hostOps0]
  after_results
  rfl

/-- The second window's array is the second argument. -/
theorem staged_w (c : Dev nD) :
    (V m c main_v1 : S4096x4096.Idx → EReal) = m ((c : Thread nD τ).loc main_arg1) := by
  dsimp only [V, hostOps0]
  after_results
  rfl

/-- Entry `(a, q)` of point `t`'s block of `X`. -/
theorem x_block (c : Dev nD) (t : Fin cfg0.N) (a : Fin 2048) (q : Fin 512) :
    (iblk m c 0 t : Vec Ideal S2048x512 .bf16) (ix2 a q)
      = m ((c : Thread nD τ).loc main_arg0) (ix2 (rowOf t.val a) (posOf t.val q)) := by
  obtain ⟨h0, h1, -⟩ := index_facts t
  unfold iblk
  rw [View.read_apply]
  show (V m c main_v0 : S8192x4096.Idx → EReal) _ = _
  rw [staged_x]
  congr 1
  funext d
  apply Fin.ext
  match d with
  | ⟨0, _⟩ => show win0_0.index t (0 : Fin 2) * 2048 + 1 * a.val = t.val / 32 % 4 * 2048 + a.val; rw [h0]; omega
  | ⟨1, _⟩ => show win0_0.index t (1 : Fin 2) * 512 + 1 * q.val = t.val % 8 * 512 + q.val; rw [h1]; omega

/-- Entry `(q, b)` of point `t`'s block of `W`. -/
theorem w_block (c : Dev nD) (t : Fin cfg0.N) (q : Fin 512) (b : Fin 1024) :
    (iblk m c 1 t : Vec Ideal S512x1024 .bf16) (ix2 q b)
      = m ((c : Thread nD τ).loc main_arg1) (ix2 (posOf t.val q) (colOf t.val b)) := by
  obtain ⟨-, -, h0, h1, -⟩ := index_facts t
  unfold iblk
  rw [View.read_apply]
  show (V m c main_v1 : S4096x4096.Idx → EReal) _ = _
  rw [staged_w]
  congr 1
  funext d
  apply Fin.ext
  match d with
  | ⟨0, _⟩ => show win0_1.index t (0 : Fin 2) * 512 + 1 * q.val = t.val % 8 * 512 + q.val; rw [h0]; omega
  | ⟨1, _⟩ => show win0_1.index t (1 : Fin 2) * 1024 + 1 * b.val = t.val / 8 % 4 * 1024 + b.val; rw [h1]; omega

/-- The 512 products of point `t` at position `(a, b)` of its tile are the specification's addend there (stated for
    any two tiles `x`, `w` that are the point's blocks). -/
theorem products_eq_addend (c : Dev nD) (t : Fin cfg0.N) (a : Fin 2048) (b : Fin 1024)
    (x : Vec Ideal S2048x512 .bf16) (w : Vec Ideal S512x1024 .bf16) (hx : x = iblk m c 0 t) (hw : w = iblk m c 1 t) :
    ∑ q : Fin 512, x (ix2 a q) * w (ix2 q b)
      = addend (m ((c : Thread nD τ).loc main_arg0)) (m ((c : Thread nD τ).loc main_arg1)) t.val a b := by
  unfold addend
  refine Finset.sum_congr rfl fun q _ => ?_
  rw [hx, hw, x_block, w_block]

/-- Entry `(a, b)` of point `t`'s tile of any array of the result's shape. -/
theorem out_block (H : S8192x4096.Idx → EReal) (t : Fin cfg0.N) (a : Fin 2048) (b : Fin 1024) :
    (((cfg0.win 2).blk t).view.read (Elt Ideal) H : Vec Ideal S2048x1024 .f32) (ix2 a b)
      = H (ix2 (rowOf t.val a) (colOf t.val b)) := by
  obtain ⟨-, -, -, -, h0, h1⟩ := index_facts t
  rw [View.read_apply]
  show H _ = _
  congr 1
  funext d
  apply Fin.ext
  match d with
  | ⟨0, _⟩ => show win0_2.index t (0 : Fin 2) * 2048 + 1 * a.val = t.val / 32 % 4 * 2048 + a.val; rw [h0]; omega
  | ⟨1, _⟩ => show win0_2.index t (1 : Fin 2) * 1024 + 1 * b.val = t.val / 8 % 4 * 1024 + b.val; rw [h1]; omega

end Cert.KernelIdeal.Blocks

end
-- ==== Proof.Fold.lean ====
/-
  The running total.

  After grid point `t`, position `(a, b)` of the scratch tile holds `0` plus the addends of the points of `t`'s run
  up to `t`: the run starts at point `8 * (t / 8)`, where the scratch is zeroed and the first addend is added, and
  every later point of the run adds its own addend to what the point before left.  This is a fold of additions, read
  off at one position; nothing about the extended reals is used beyond addition being an additive commutative
  monoid.
-/
import proofs.«161810_j20787641712654_2_alg».proof.Proof.Gen.KernelIdeal.Value
import proofs.«161810_j20787641712654_2_alg».proof.Proof.Pieces
import proofs.«161810_j20787641712654_2_alg».proof.Proof.Payload
import proofs.«161810_j20787641712654_2_alg».proof.Proof.Blocks

set_option maxRecDepth 16384

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx
open Cert.Spec (addend)

variable (m : (ℓ : Loc nD τ sig) → Buf (Elt Ideal) ℓ)

/-- Point `n`'s addend as a function of the tile position. -/
def term (c : Dev nD) (n : ℕ) (y : S2048x1024.Idx) : EReal :=
  addend (m ((c : Thread nD τ).loc main_arg0)) (m ((c : Thread nD τ).loc main_arg1)) n (y 0) (y 1)

/-- One step of the body at point `t`, on any previous contents `acc`: `acc` plus the point's addend, position by
    position. -/
theorem step_eq (c : Dev nD) (t : Fin cfg0.N) (acc : Vec Ideal S2048x1024 .f32) (y : S2048x1024.Idx) :
    k0_pay2 (F := Ideal) acc (iblk m c 0 t) (iblk m c 1 t) y = acc y + term m c t.val y := by
  obtain ⟨a, b, rfl⟩ : ∃ (a : Fin 2048) (b : Fin 1024), y = ix2 a b := ⟨y 0, y 1, eq_ix2 y⟩
  refine (Payload.step_apply acc (iblk m c 0 t) (iblk m c 1 t) a b).trans ?_
  exact congrArg (acc (ix2 a b) + ·)
    (Blocks.products_eq_addend m c t a b (iblk m c 0 t) (iblk m c 1 t) rfl rfl)

/-- At the first point of a run the scratch ends at `0` plus that point's addend, whatever it held before. -/
theorem first_eq (c : Dev nD) (n : ℕ) (h : n < cfg0.N) (h0 : n % 8 = 0) (acc : Vec Ideal S2048x1024 .f32)
    (y : S2048x1024.Idx) :
    Value.scAt0_0 m c n h acc y = 0 + term m c n y := by
  have h1 : ¬n % 8 = 7 := by omega
  unfold Value.scAt0_0
  rw [dif_pos h0, dif_neg h1, Pieces.scratch_first]
  refine (step_eq m c ⟨n, h⟩ (k0_pay1 (F := Ideal)) y).trans ?_
  rw [Payload.zero_apply]

/-- At every other point it ends at what the point before left plus that point's addend. -/
theorem later_eq (c : Dev nD) (n : ℕ) (h : n < cfg0.N) (h0 : ¬n % 8 = 0) (acc : Vec Ideal S2048x1024 .f32)
    (y : S2048x1024.Idx) :
    Value.scAt0_0 m c n h acc y = acc y + term m c n y := by
  unfold Value.scAt0_0
  rw [dif_neg h0]
  by_cases h1 : n % 8 = 7
  · rw [dif_pos h1, Pieces.scratch_last]
    exact step_eq m c ⟨n, h⟩ acc y
  · rw [dif_neg h1, Pieces.scratch_middle]
    exact step_eq m c ⟨n, h⟩ acc y

/-- The scratch after point `t`: `0` plus the addends of the run's points up to `t`. -/
theorem scratch_eq (c : Dev nD) (t : Fin cfg0.N) (y : S2048x1024.Idx) :
    (outsAt0 m c t.val t.isLt).2 y
      = 0 + ∑ s ∈ Finset.range (t.val % 8 + 1), term m c (8 * (t.val / 8) + s) y := by
  rw [Value.soutsAt0_0_eq m c t]
  have hm : t.val % 8 < 8 := Nat.mod_lt _ (by decide)
  exact Pipeline.accAt_add_apply (ι := S2048x1024.Idx) (β := EReal)
    (fun n h => Value.scAt0_0 m c n h (VS0_0.read (Elt Ideal) VS0_0.junk)) (Value.scAt0_0 m c)
    (fun _ => 0) (term m c) (8 * (t.val / 8)) 7
    (fun h y => first_eq m c _ h (by omega) _ y)
    (fun n h acc y hb hn => later_eq m c n h (by omega) acc y)
    (t.val % 8) (by omega) _ y

end Cert.KernelIdeal.Fold

end
-- ==== Proof.Final.lean ====
/-
  The result array after the kernel's run.

  Only the last point of each tile's run (the points `t` with `t % 8 = 7`) writes its tile back.  There the output
  tile is the binarisation of the scratch, which by then holds `0` plus all eight addends of the run, that is, the
  whole dot product of the tile's row of `X` and column of `W`: the tile written back is the specification's tile.
  The sixteen tiles written back cover the result array — entry `(r, c)` lies in the tile of point
  `(r / 2048 * 4 + c / 1024) * 8 + 7` — so the array ends holding the specification everywhere.
-/
import proofs.«161810_j20787641712654_2_alg».proof.Proof.Fold

set_option maxRecDepth 16384

noncomputable section

open scoped BigOperators

namespace Cert.KernelIdeal.Final

open Cert.KernelIdeal Cert.KernelIdeal.Gen Idealize.ShloMosaic Idealize.ShloMosaic.TcCoe Idealize.SL.Sem
open Idealize.ShloMosaic.ValueIdx
open Cert.Spec (rowOf colOf addend)

variable (m : (ℓ : Loc nD τ sig) → Buf (Elt Ideal) ℓ) (ρ : Dev nD → PrngReg)

/-- What the result array ends holding: the specification of the two arguments as launched. -/
abbrev result (c : Dev nD) : Buf (Elt Ideal) ((c : Thread nD τ).loc main_v2) :=
  Cert.Spec.G (m ((c : Thread nD τ).loc main_arg0)) (m ((c : Thread nD τ).loc main_arg1))

/-- At the last point of a run the output tile is the binarisation of what that point leaves in the scratch. -/
theorem output_eq (c : Dev nD) (t : Fin cfg0.N) (h0 : ¬t.val % 8 = 0) (h1 : t.val % 8 = 7) :
    (outsAt0 m c t.val t.isLt).1 = k0_pay3 (F := Ideal) (outsAt0 m c t.val t.isLt).2 := by
  rw [outsAt0_C m c t h0 h1]
  dsimp only
  rw [Pieces.output_last, Pieces.scratch_last]

/-- Position `(a, b)` of that tile is the specification at the entry the position stands for. -/
theorem tile_apply (c : Dev nD) (t : Fin cfg0.N) (h1 : t.val % 8 = 7) (a : Fin 2048) (b : Fin 1024) :
    (outsAt0 m c t.val t.isLt).1 (ix2 a b) = result m c (ix2 (rowOf t.val a) (colOf t.val b)) := by
  have h0 : ¬t.val % 8 = 0 := by omega
  rw [output_eq m c t h0 h1, Payload.binarise_apply, Fold.scratch_eq m c t (ix2 a b), h1]
  show Cert.Spec.binarise (0 + ∑ s ∈ Finset.range 8,
      addend (m ((c : Thread nD τ).loc main_arg0)) (m ((c : Thread nD τ).loc main_arg1)) (8 * (t.val / 8) + s) a b) = _
  rw [Cert.Spec.sum_addends, zero_add]
  have hr : rowOf (8 * (t.val / 8)) a = rowOf t.val a := Fin.ext (by
    show 8 * (t.val / 8) / 32 % 4 * 2048 + a.val = t.val / 32 % 4 * 2048 + a.val; omega)
  have hc : colOf (8 * (t.val / 8)) b = colOf t.val b := Fin.ext (by
    show 8 * (t.val / 8) / 8 % 4 * 1024 + b.val = t.val / 8 % 4 * 1024 + b.val; omega)
  rw [hr, hc]
  exact (Cert.Spec.G_ix2 _ _ (rowOf t.val a) (colOf t.val b)).symm

/-- What a flushing point writes back is its tile of the specification. -/
theorem flushed_eq (c : Dev nD) (t : Fin cfg0.N) (hf : (cfg0.win 2).flush t = true) :
    (dats m 0 c).flushed 2 t = ((cfg0.win 2).blk t).view.read (Elt Ideal) (result m c) := by
  have h1 : t.val % 8 = 7 := (flush0_2 t).mp hf
  rw [Value.flushed2]
  refine funext fun (y : S2048x1024.Idx) => ?_
  show (outsAt0 m c t.val t.isLt).1 y
    = (((cfg0.win 2).blk t).view.read (Elt Ideal) (result m c) : Vec Ideal S2048x1024 .f32) y
  obtain ⟨a, b, rfl⟩ : ∃ (a : Fin 2048) (b : Fin 1024), y = ix2 a b := ⟨y 0, y 1, eq_ix2 y⟩
  rw [Blocks.out_block]
  exact tile_apply m c t h1 a b

/-- An entry of the array is in point `t`'s tile iff each coordinate is in the tile's range on its axis. -/
theorem mem_tile (t : Fin cfg0.N) (i : S8192x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v2).slice (win0_2.rect t)).set ↔ _
  rw [View.set_slice_whole, Rect.mem_set_unit]
  exact Iff.rfl

/-- Every entry of the result lies in the tile some flushing point writes back. -/
theorem cover (i : S8192x4096.Idx) :
    ∃ t : Fin cfg0.N, (cfg0.win 2).flush t = true ∧ i ∈ ((cfg0.win 2).blk t).view.set := by
  have hi0 : (i 0).val < 8192 := idx2_lt0 i
  have hi1 : (i 1).val < 4096 := idx2_lt1 i
  have hN : cfg0.N = 128 := N_0
  have hn : ((i 0).val / 2048 * 4 + (i 1).val / 1024) * 8 + 7 < cfg0.N := by rw [hN]; omega
  refine ⟨⟨((i 0).val / 2048 * 4 + (i 1).val / 1024) * 8 + 7, hn⟩, (flush0_2 _).mpr (by
    show (((i 0).val / 2048 * 4 + (i 1).val / 1024) * 8 + 7) % 8 = 7; omega), ?_⟩
  obtain ⟨-, -, -, -, e0, e1⟩ := Blocks.index_facts ⟨((i 0).val / 2048 * 4 + (i 1).val / 1024) * 8 + 7, hn⟩
  rw [mem_tile]
  intro a
  match a with
  | ⟨0, _⟩ =>
    show win0_2.index _ (0 : Fin 2) * 2048 ≤ (i 0).val ∧ (i 0).val < win0_2.index _ (0 : Fin 2) * 2048 + 2048
    rw [e0]
    show (((i 0).val / 2048 * 4 + (i 1).val / 1024) * 8 + 7) / 32 % 4 * 2048 ≤ (i 0).val
      ∧ (i 0).val < (((i 0).val / 2048 * 4 + (i 1).val / 1024) * 8 + 7) / 32 % 4 * 2048 + 2048
    omega
  | ⟨1, _⟩ =>
    show win0_2.index _ (1 : Fin 2) * 1024 ≤ (i 1).val ∧ (i 1).val < win0_2.index _ (1 : Fin 2) * 1024 + 1024
    rw [e1]
    show (((i 0).val / 2048 * 4 + (i 1).val / 1024) * 8 + 7) / 8 % 4 * 1024 ≤ (i 1).val
      ∧ (i 1).val < (((i 0).val / 2048 * 4 + (i 1).val / 1024) * 8 + 7) / 8 % 4 * 1024 + 1024
    omega

/-- The result array after the run is the specification. -/
theorem final (c : Dev nD) : (dats m 0 c).arrAt 2 cfg0.N = result m c :=
  (dats m 0 c).arrAt_eq_of_cover 2 (result m c) (flushed_eq m c) cover

/-- The kernel's run: every weakly fair execution terminates with the result array at the specification of the
    arguments and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.lean ====
/-
  A dense layer with binarised output: for `X` of shape [8192, 4096] and `W` of shape [4096, 4096] the result at
  `(r, c)` is `+1` where the dot product of row `r` of `X` with column `c` of `W` is positive and `-1` elsewhere.

  The reference forms the whole matrix product and binarises it.  The kernel tiles the result into 4 × 4 tiles of
  2048 × 1024 entries and, for each tile, walks the contracted axis in 8 steps of 512 positions, keeping the running
  total in a scratch tile: zeroed at the first step, increased by the step's partial product at every step, binarised
  into the output tile at the last step.  Over the extended reals the two agree entry by entry, because

    * a change of float format (the casts of both arguments to bf16 before the kernel) is the identity,
    * a matrix-unit product into a zero accumulator and the host's `dot_general` are the same finite sum of products,
    * the eight partial sums of 512 products add up to the one sum of 4096 products — a regrouping of a finite sum,
      which needs only that addition is associative and commutative and `0` is neutral, and so holds on the extended
      reals whether or not the inputs are finite,
    * both programs compare with the same zero and select between the same two constants.

  The modules: `BlockSum` (the regrouping), `Spec` (the result as one function `G` of the arguments; a grid point's
  addend), `RefIsSpec` (the reference is `G`), `Pieces` (what each control case of the body leaves, as the body's
  arithmetic), `Payload` (that arithmetic at one position), `Blocks` (where a point's blocks sit in the arguments),
  `Fold` (the scratch after any point is `0` plus the addends so far), `Final` (the tile written back, the cover, the
  result array).  Here the five claims are put together; the idealisation rewrote nothing, so `preserves` is `True`.
-/
import proofs.«161810_j20787641712654_2_alg».proof.Defs
import proofs.«161810_j20787641712654_2_alg».proof.Proof.Gen.Kernel
import proofs.«161810_j20787641712654_2_alg».proof.Proof.Gen.Kernel.Skeleton
import proofs.«161810_j20787641712654_2_alg».proof.Proof.Gen.Kernel.Launch
import proofs.«161810_j20787641712654_2_alg».proof.Proof.Gen.Kernel.Points
import proofs.«161810_j20787641712654_2_alg».proof.Proof.Gen.Kernel.Frame
import proofs.«161810_j20787641712654_2_alg».proof.Proof.Gen.KernelIdeal
import proofs.«161810_j20787641712654_2_alg».proof.Proof.Gen.KernelIdeal.Skeleton
import proofs.«161810_j20787641712654_2_alg».proof.Proof.Gen.KernelIdeal.Launch
import proofs.«161810_j20787641712654_2_alg».proof.Proof.Gen.KernelIdeal.Points
import proofs.«161810_j20787641712654_2_alg».proof.Proof.Gen.KernelIdeal.Frame
import proofs.«161810_j20787641712654_2_alg».proof.Proof.Gen.ReferenceIdeal
import proofs.«161810_j20787641712654_2_alg».proof.Proof.Gen.Pre_finite_inputs
import proofs.«161810_j20787641712654_2_alg».proof.Proof.Gen.KernelIdeal.Value
import proofs.«161810_j20787641712654_2_alg».proof.Proof.Gen.ReferenceIdeal.Run
import proofs.«161810_j20787641712654_2_alg».proof.Proof.Gen.ReferenceIdeal.Read
import proofs.«161810_j20787641712654_2_alg».proof.Proof.RefIsSpec
import proofs.«161810_j20787641712654_2_alg».proof.Proof.Final
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments, both programs end with the result array at the specification `G` of
    those arguments: the kernel by its run (`Final.run`), the reference because its composed term is `G`. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
